-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S4096x1 : Shape := ⟨2, ![4096, 1]⟩
abbrev S256x4096 : Shape := ⟨2, ![256, 4096]⟩
abbrev S256x1 : Shape := ⟨2, ![256, 1]⟩
abbrev S256x1024 : Shape := ⟨2, ![256, 1024]⟩
abbrev S256 : Shape := ⟨1, ![256]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x1, .f32⟩
  | .local _ .vmem, ⟨5, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c1024_i32 : BitVec 32 := 1024#32
  let v1 : BitVec 32 := Scalar.muli c0_i32 c1024_i32
  v1
def k0_off1 (c0_i32 : BitVec 32) : Fin 2 → Nat :=
  let c0 : Index := 0#32
  let c1024_i32 : BitVec 32 := 1024#32
  let v1 : BitVec 32 := Scalar.muli c0_i32 c1024_i32
  let v2 : BitVec 32 := v1
  let v3 : Index := Scalar.indexCast v2
  ![0, v3.toNat]
def k0_mult2 : BitVec 32 :=
  let c1_i32 : BitVec 32 := 1#32
  let c1024_i32_6 : BitVec 32 := 1024#32
  let v25 : BitVec 32 := Scalar.muli c1_i32 c1024_i32_6
  v25
def k0_mult3 : BitVec 32 :=
  let c2_i32 : BitVec 32 := 2#32
  let c1024_i32_14 : BitVec 32 := 1024#32
  let v49 : BitVec 32 := Scalar.muli c2_i32 c1024_i32_14
  v49
def k0_mult4 : BitVec 32 :=
  let c3_i32 : BitVec 32 := 3#32
  let c1024_i32_22 : BitVec 32 := 1024#32
  let v73 : BitVec 32 := Scalar.muli c3_i32 c1024_i32_22
  v73
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S256x1024 : 0 < S256x1024.numel
  reduces_S256x1024_S256 : S256x1024.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  reducesTo_S4096x1_S_d0_1 : S4096x1.ReducesTo [0, 1] S_
  h_S_ : 0 < S_.numel
  hrank0 : 0 < grid0.rank
  k0_mult1_dvd : 1024 ∣ k0_mult1.toNat
  k0_off1_inb : ∀ (r : Fin 4), ∀ a, (k0_off1 (BitVec.ofNat 32 r.val)) a + S256x1024.size a ≤ S256x4096.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S_ : Shape := ⟨0, ![]⟩
abbrev S4096 : Shape := ⟨1, ![4096]⟩

abbrev nBuf : Space → Nat
  | .hbm => 39
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S4096x4096, .f32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev main_cst_4 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_5 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_v23 : Ref sig .tc := ⟨.hbm, 34, rfl⟩
abbrev main_cst_8 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_

variable [Facts₀]

class Facts : Prop extends Facts₀ where

variable [Facts]
-- ==== Proof.BlockBody.lean ====
/-
  What the kernel's body leaves in its output block, as one term over the two input blocks.

  At a grid point the body sees a block of 256 rows of each argument, all 4096 columns wide, and writes a column of
  256 values. It reads each block in four pieces of 1024 columns. For each of the five moments of a row (the sums of
  `x`, `y`, `x²`, `y²`, `x·y`) it sums every piece along its rows, lays the 256 sums out as a column, and adds the four
  columns one after the other to a column of zeros. From the five columns it forms, row by row,
  `(n · dot − sx · sy) / √((n · ssx − sx²) · (n · ssy − sy²))` with `n` the word of `4096.0`.

  `body` writes this down with one name per step; `out_eq` says the one store the body makes covers the output block
  and its payload is `body` of the two input blocks (the body also loads the output block before storing to it; that
  load's value is never used).
-/
import proofs.«117892_j6545530159352_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen
open Idealize.ShloMosaic Idealize.ShloMosaic.TcCoe Idealize.SL.Sem Idealize.ShloMosaic.Tactic

variable {F : FTy → Type} [FloatOps F]

/-- Piece `c` of a block: its columns `1024 · c` to `1024 · c + 1023`, all 256 rows. -/
abbrev cols (c : Fin 4) (x : Vec F S256x4096 .f32) : Vec F S256x1024 .f32 :=
  View.ld x (Rect.unit (s := S256x4096) ![0, 1024 * c.val] ![256, 1024]
    (Rect.inb₂ (by show 0 + 256 ≤ 256; omega) (by show 1024 * c.val + 1024 ≤ 4096; have := c.isLt; omega)))

/-- The sums of a piece along its rows, laid out as a column of 256. -/
def rowSums (v : FVec F S256x1024 .f32) : FVec F S256x1 .f32 :=
  shapeCast S256x1 (multiReduction .add [1] S256 v 0x00000000#32 reduces_S256x1024_S256 (.inl rfl) rfl)
    shapeCasts_S256_S256x1

/-- The four pieces' row sums added one after the other to a column of zeros. -/
def total (g : Fin 4 → FVec F S256x1024 .f32) : FVec F S256x1 .f32 :=
  addf (addf (addf (addf (broadcast S256x1 (Scalar.ofBits .f32 0x00000000#32)) (rowSums (g 0))) (rowSums (g 1)))
    (rowSums (g 2))) (rowSums (g 3))

/-- The column the body stores, from the two input blocks. -/
def body (x y : Vec F S256x4096 .f32) : FVec F S256x1 .f32 :=
  divf
    (subf (mulf (broadcast S256x1 (Scalar.ofBits .f32 0x45800000#32)) (total fun c => mulf (cols c x) (cols c y)))
      (mulf (total fun c => cols c x) (total fun c => cols c y)))
    (sqrt (mulf
      (subf (mulf (broadcast S256x1 (Scalar.ofBits .f32 0x45800000#32)) (total fun c => mulf (cols c x) (cols c x)))
        (mulf (total fun c => cols c x) (total fun c => cols c x)))
      (subf (mulf (broadcast S256x1 (Scalar.ofBits .f32 0x45800000#32)) (total fun c => mulf (cols c y) (cols c y)))
        (mulf (total fun c => cols c y) (total fun c => cols c y)))))

theorem zero_offsets : (![0, 0] : Fin 2 → Nat) = fun _ => 0 := funext fun a => by fin_cases a <;> rfl

/-- The output's staging buffer after the body, on whole staging buffers holding the blocks `x` and `y`: the body's
    one store writes the whole block, so the buffer reads back that store's payload, which is `body x y`. -/
theorem out_eq (c : Dev nD) (i : grid0.Coords) (a1 : Memref sig .tc .vmem S256x4096 .f32) (h1 : a1.IsWhole)
    (a2 : Memref sig .tc .vmem S256x4096 .f32) (h2 : a2.IsWhole) (a3 : Memref sig .tc .vmem S256x1 .f32) (h3 : a3.IsWhole)
    (x y : Vec F S256x4096 .f32) :
    out0_A_2 c i a1 h1 a2 h2 a3 h3 x y = body x y := by
  unfold out0_A_2
  rw [View.read_writes_eq_canon _ _ _ (cover0_A_2 c i a1 h1 a2 h2 a3 h3 x y)]
  unfold kernelRun0_A
  dsimp only
  sl_unfold_words
  rw [View.canon_unit_zero zero_offsets]
  simp only [View.readAt_eq_ld, h1.read_unread, h2.read_unread]
  rfl

end Cert.KernelIdeal.Body

end
-- ==== Proof.Pearson.lean ====
/-
  The quantity both programs compute, as one function of the two argument matrices over the extended reals.

  For matrices `X`, `Y` of 4096 rows and 4096 columns, row `r` has the five moments
  `sx = ∑ₖ X r k`, `sy = ∑ₖ Y r k`, `ssx = ∑ₖ (X r k)²`, `ssy = ∑ₖ (Y r k)²`, `dot = ∑ₖ X r k · Y r k`, its
  correlation is `(n · dot − sx · sy) / √((n · ssx − sx²) · (n · ssy − sy²))` with `n = 4096`, and the loss is
  `1 − (∑ᵣ correlation r) / n`.

  One program sums a row in one go; the other cuts the 4096 columns into four chunks of 1024, sums each chunk,
  and adds the four chunk sums one after the other starting from zero. Addition of extended reals is commutative
  and associative (a commutative monoid, the infinities included), so the two agree: `chain_eq_sum`.
-/
import Idealize.ShloMosaic.PureOps.Ideal.Laws
import Idealize.ShloMosaic.Lib.ValueIdx

noncomputable section

namespace Cert.Pearson

open Idealize.ShloMosaic Idealize.ShloMosaic.ValueIdx

/-- A 4096 × 4096 matrix of extended reals, indexed as the programs index it. -/
abbrev Mat : Type := (⟨2, ![4096, 4096]⟩ : Shape).Idx → EReal

/-- The row length as both programs write it: the float word of `4096.0`. -/
abbrev len : EReal := Ideal.ofBits .f32 0x45800000#32

/-- The float word of `1.0`. -/
abbrev unit : EReal := Ideal.ofBits .f32 0x3F800000#32

/-- The correlation of a row from its five moments. -/
def corr (sx sy ssx ssy dot : EReal) : EReal :=
  Ideal.div (len * dot - sx * sy) (Ideal.sqrt ((len * ssx - sx * sx) * (len * ssy - sy * sy)))

/-- The correlation of row `r` of `X` with row `r` of `Y`. -/
def rowCorr (X Y : Mat) (r : Fin 4096) : EReal :=
  corr (∑ k : Fin 4096, X (ix2 r k)) (∑ k : Fin 4096, Y (ix2 r k))
    (∑ k : Fin 4096, X (ix2 r k) * X (ix2 r k)) (∑ k : Fin 4096, Y (ix2 r k) * Y (ix2 r k))
    (∑ k : Fin 4096, X (ix2 r k) * Y (ix2 r k))

/-- The loss: one minus the mean of the rows' correlations. -/
def loss (X Y : Mat) : EReal := unit - Ideal.div (∑ r : Fin 4096, rowCorr X Y r) len

/-- Column `k` of chunk `c`: column `1024 · c + k` of the row. -/
def chunk (c : Fin 4) (k : Fin 1024) : Fin 4096 :=
  ⟨1024 * c.val + k.val, by have := c.isLt; have := k.isLt; omega⟩

/-- A column is column `j % 1024` of chunk `j / 1024`, and conversely: the columns are the pairs (chunk, place). -/
def chunkEquiv : Fin 4 × Fin 1024 ≃ Fin 4096 where
  toFun p := chunk p.1 p.2
  invFun j := (⟨j.val / 1024, by have := j.isLt; omega⟩, ⟨j.val % 1024, by omega⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv j := by
    refine Fin.ext ?_
    show 1024 * (j.val / 1024) + j.val % 1024 = j.val
    omega

/-- A sum over a row's 4096 columns is the sum over the four chunks of each chunk's sum. -/
theorem sum_eq_sum_chunks {M : Type} [AddCommMonoid M] (f : Fin 4096 → M) :
    ∑ j : Fin 4096, f j = ∑ c : Fin 4, ∑ k : Fin 1024, f (chunk c k) := by
  rw [← Equiv.sum_comp chunkEquiv f, Fintype.sum_prod_type]
  rfl

/-- The four chunk sums added one after the other, starting from zero, are the row's sum: only commutativity and
    associativity of addition are used, so this holds of extended reals whatever the entries are. -/
theorem chain_eq_sum {M : Type} [AddCommMonoid M] (f : Fin 4096 → M) :
    (((0 + ∑ k : Fin 1024, f (chunk 0 k)) + ∑ k : Fin 1024, f (chunk 1 k)) + ∑ k : Fin 1024, f (chunk 2 k))
      + ∑ k : Fin 1024, f (chunk 3 k) = ∑ j : Fin 4096, f j := by
  rw [sum_eq_sum_chunks, Fin.sum_univ_four, zero_add]

end Cert.Pearson

end
-- ==== Proof.LibColumnForms.lean ====
/-
  A column vector read at an index.

  Summing a matrix along its rows with the summed axis kept gives a column: the sums, an `[a]` vector, are laid out as
  `[a, 1]`, and the column is then copied along a new second axis to `[a, b]`. Entry `(i, j)` of the result is
  entry `i` of the vector, whatever `j`. The two lemmas below say this one layout step at a time, every index
  written by its coordinates.
-/
import Idealize.ShloMosaic.Lib.Pipeline.Value
import Idealize.ShloMosaic.Lib.ValueIdx

namespace Cert.ColumnForms

open Idealize.ShloMosaic Idealize.ShloMosaic.ValueIdx

variable {α : Type}

/-- A vector `[a]` laid out as a column `[a, 1]` reads, at `(i, u)`, the vector at `i`: the row-major position
    `i · 1 + u` of `(i, u)` is `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` copied along its unit axis to `[a, b]` reads, at `(i, j)`, the column at `(i, 0)`: the first
    coordinate is kept (also when `a = 1`, where it is `0` anyway), the second is the unit axis's only one. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.ColumnForms
-- ==== Proof.LibRowForms.lean ====
/-
  Row reductions of a matrix, and a column laid along the rows, read at an index.

  Reducing a matrix `[a, b]` along its second axis gives a vector `[a]` whose entry `i` depends on row `i` alone: for a
  sum it is the sum of the row's `b` entries, for a maximum the fold of `max` over them from the initial value. And a
  column `[b, 1]`, transposed to the row `[1, b]` and copied down to `[a, b]`, has at `(i, j)` entry `j` of the column,
  whatever `i`. Every index is written by its coordinates.
-/
import Idealize.ShloMosaic.PureOps.Ideal.Laws
import Idealize.ShloMosaic.Lib.ValueIdx
import Idealize.ShloMosaic.Lib.ValueLayout

namespace Cert.RowForms

open Idealize.ShloMosaic Idealize.ShloMosaic.ValueIdx

/-- The index of the matrix that reduces to `i` along the second axis and has `k` there is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext d; apply Fin.ext
  match d with
  | ⟨0, _⟩ => rfl
  | ⟨1, _⟩ => rfl

/-- A float sum along the rows, from the zero word, at `i`: the sum of row `i`. -/
theorem multiReduction_add_rows {a b : ℕ} (src : FVec Ideal ⟨2, ![a, b]⟩ .f32)
    (h : (⟨2, ![a, b]⟩ : Shape).Reduces [1] ⟨1, ![a]⟩) (i : Fin a) :
    multiReduction .add [1] ⟨1, ![a]⟩ src 0x00000000#32 h (.inl rfl) rfl (ix1 i) = ∑ k : Fin b, src (ix2 i k) :=
  (Ideal.multiReduction_add_single src 0x00000000#32 h (.inl rfl) rfl (ix1 i)).trans
    (Finset.sum_congr rfl fun k _ => congrArg src (lift_row h i k))

/-- A float maximum along the rows, from the word of minus infinity, at `i`: the fold of `max` over row `i`. -/
theorem multiReduction_max_rows {a b : ℕ} (src : FVec Ideal ⟨2, ![a, b]⟩ .f32)
    (h : (⟨2, ![a, b]⟩ : Shape).Reduces [1] ⟨1, ![a]⟩) (i : Fin a) :
    multiReduction .maximumf [1] ⟨1, ![a]⟩ src 0xFF800000#32 h (.inl rfl) rfl (ix1 i)
      = (Finset.univ : Finset (Fin b)).fold max (Ideal.ofBits .f32 0xFF800000#32) (fun k => src (ix2 i k)) :=
  (Ideal.multiReduction_maximumf_single src 0xFF800000#32 h (.inl rfl) rfl (ix1 i)).trans
    (congrArg (fun f => Finset.fold max (Ideal.ofBits .f32 0xFF800000#32) f (Finset.univ : Finset (Fin b)))
      (funext fun k => congrArg src (lift_row h i k)))

/-- A column `[b, 1]` transposed to a row `[1, b]` and copied down to `[a, b]` reads, at `(i, j)`, the column at `(j, 0)`. -/
theorem rowOfColumn_apply {α : Type} {a b : ℕ} (col : (⟨2, ![b, 1]⟩ : Shape).Idx → α)
    (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] col ht) hb (ix2 i j) = col (ix2 j (0 : Fin 1)) :=
  (broadcastTo_1b_ab_apply _ hb i j).trans (transpose_ix2_apply col ht (0 : Fin 1) j)

end Cert.RowForms
-- ==== Proof.BlockRow.lean ====
/-
  The body's column, read at a row, over the extended reals.

  Row `p` of piece `c` of a block is row `p` of the block at columns `1024 · c + k`. A piece's row sums laid out as a
  column hold at `(p, 0)` the sum of row `p` of the piece. The four pieces' sums chained from zero are therefore the
  sum of row `p` of the block over all 4096 columns (`Pearson.chain_eq_sum`), for each of the five moments, and the
  body's value at `(p, 0)` is the correlation of row `p` of the first block with row `p` of the second.
-/
import proofs.«117892_j6545530159352_2_alg».proof.Proof.BlockBody
import proofs.«117892_j6545530159352_2_alg».proof.Proof.Pearson
import proofs.«117892_j6545530159352_2_alg».proof.Proof.LibColumnForms
import proofs.«117892_j6545530159352_2_alg».proof.Proof.LibRowForms
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx Idealize.SL.Sem

/-- Row `p`, place `k` of piece `c` is row `p`, column `1024 · c + k` of the block. -/
theorem cols_apply (c : Fin 4) (x : Vec Ideal S256x4096 .f32) (p : Fin 256) (k : Fin 1024) :
    cols c x (ix2 p k) = x (ix2 p (Cert.Pearson.chunk c k)) := by
  show x _ = x _
  congr 1
  funext a
  apply Fin.ext
  match a with
  | ⟨0, _⟩ => show 0 + 1 * p.val = p.val; omega
  | ⟨1, _⟩ => show 1024 * c.val + 1 * k.val = 1024 * c.val + k.val; omega

/-- A piece's row sums, laid out as a column, hold at `(p, u)` the sum of the piece's row `p`. -/
theorem rowSums_apply (v : FVec Ideal S256x1024 .f32) (p : Fin 256) (u : Fin 1) :
    rowSums v (ix2 p u) = ∑ k : Fin 1024, v (ix2 p k) :=
  (Cert.ColumnForms.shapeCast_a_a1_apply _ shapeCasts_S256_S256x1 p u).trans
    (Cert.RowForms.multiReduction_add_rows v reduces_S256x1024_S256 p)

/-- Four pieces that are the chunks of one row function `f` at row `p`: their sums chained from zero are the sum of
    `f` over all 4096 columns. -/
theorem total_apply (g : Fin 4 → FVec Ideal S256x1024 .f32) (f : Fin 4096 → EReal) (p : Fin 256) (u : Fin 1)
    (hg : ∀ (c : Fin 4) (k : Fin 1024), g c (ix2 p k) = f (Cert.Pearson.chunk c k)) :
    total g (ix2 p u) = ∑ j : Fin 4096, f j := by
  rw [← Cert.Pearson.chain_eq_sum f]
  unfold total
  simp only [addf_apply, rowSums_apply, hg, broadcast_apply, Scalar.ofBits, Ideal.ofBits_def, Ideal.ofBits_zero_f32]

/-- The body's column at `(p, u)`, for blocks `x`, `y` whose rows `p` are rows `r` of matrices `X`, `Y`: the correlation
    of row `r` of `X` with row `r` of `Y`. Each of the five totals is the chain of its four chunk sums, hence the full
    row sum; the rest of the body is the correlation's formula, operation for operation. -/
theorem body_row (x y : Vec Ideal S256x4096 .f32) (X Y : Cert.Pearson.Mat) (p : Fin 256) (u : Fin 1) (r : Fin 4096)
    (hx : ∀ k : Fin 4096, x (ix2 p k) = X (ix2 r k)) (hy : ∀ k : Fin 4096, y (ix2 p k) = Y (ix2 r k)) :
    body x y (ix2 p u) = Cert.Pearson.rowCorr X Y r := by
  have sx : total (fun c => cols c x) (ix2 p u) = ∑ j : Fin 4096, X (ix2 r j) :=
    total_apply _ (fun j => X (ix2 r j)) p u fun c k => (cols_apply c x p k).trans (hx _)
  have sy : total (fun c => cols c y) (ix2 p u) = ∑ j : Fin 4096, Y (ix2 r j) :=
    total_apply _ (fun j => Y (ix2 r j)) p u fun c k => (cols_apply c y p k).trans (hy _)
  have ssx : total (fun c => mulf (cols c x) (cols c x)) (ix2 p u) = ∑ j : Fin 4096, X (ix2 r j) * X (ix2 r j) :=
    total_apply _ (fun j => X (ix2 r j) * X (ix2 r j)) p u fun c k => by
      rw [mulf_apply, cols_apply, hx]
  have ssy : total (fun c => mulf (cols c y) (cols c y)) (ix2 p u) = ∑ j : Fin 4096, Y (ix2 r j) * Y (ix2 r j) :=
    total_apply _ (fun j => Y (ix2 r j) * Y (ix2 r j)) p u fun c k => by
      rw [mulf_apply, cols_apply, hy]
  have dot : total (fun c => mulf (cols c x) (cols c y)) (ix2 p u) = ∑ j : Fin 4096, X (ix2 r j) * Y (ix2 r j) :=
    total_apply _ (fun j => X (ix2 r j) * Y (ix2 r j)) p u fun c k => by
      rw [mulf_apply, cols_apply, cols_apply, hx, hy]
  unfold body
  simp only [divf_apply, subf_apply, mulf_apply, broadcast_apply, sqrt, Ideal.sqrt_def, sx, sy, ssx, ssy, dot,
    Scalar.ofBits, Ideal.ofBits_def]
  rfl

end Cert.KernelIdeal.Body

end
-- ==== Proof.BlockArray.lean ====
/-
  The kernel's result array is the column of the rows' correlations.

  Grid point `t` (of 16) is given rows `256 · t` to `256 · t + 255` of each argument, all columns, and writes rows
  `256 · t` to `256 · t + 255` of the one-column result. Row `p` of its blocks is row `256 · t + p` of the arguments, so
  by `body_row` what it writes at `(p, 0)` is the correlation of row `256 · t + p` — the block of the column of
  correlations at point `t`. Row `r` of the result lies in the block of point `r / 256`, so the 16 blocks cover the
  result array, which therefore ends holding the whole column.
-/
import proofs.«117892_j6545530159352_2_alg».proof.Proof.BlockRow
import Idealize.ShloMosaic.Lib.Pipeline.Value
import Idealize.ShloMosaic.Lib.ValueIdx

noncomputable section

namespace Cert.KernelIdeal.Body

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The column of correlations: entry `(r, 0)` is the correlation of row `r` of `X` with row `r` of `Y`. -/
def corrColumn (X Y : Cert.Pearson.Mat) : S4096x1.Idx → EReal :=
  fun i => Cert.Pearson.rowCorr X Y ⟨(i 0).val, idx2_lt0 i⟩

theorem corrColumn_apply (X Y : Cert.Pearson.Mat) (r : Fin 4096) (u : Fin 1) :
    corrColumn X Y (ix2 r u) = Cert.Pearson.rowCorr X Y r := rfl

/-- Every window's block index at point `t` is `(t, 0)`: decided over the 16 points. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the column of correlations of the arguments. -/
theorem flushed_eq (c : Dev nD) (t : Fin cfg0.N) :
    (dats m 0 c).flushed 2 t
      = ((cfg0.win 2).blk t).view.read (Elt Ideal) (corrColumn (V m c main_arg0) (V m c main_arg1)) := by
  show (cfg0.win 2).cut (grid0.coords t) ((dats m 0 c).after 2 t) = _
  rw [after0_2]
  unfold outsAt0
  rw [out_eq]
  obtain ⟨e00, e01, e10, e11, e20, e21⟩ := index_facts t
  have ht : t.val < 16 := by have h := t.isLt; have hN : cfg0.N = 16 := N_0; omega
  funext j
  obtain ⟨p, u, rfl⟩ : ∃ (p : Fin 256) (u : Fin 1), j = ix2 p u := ⟨j 0, j 1, eq_ix2 j⟩
  have hp := p.isLt
  show body (iblk m c 0 t) (iblk m c 1 t) (ix2 p u)
    = corrColumn (V m c main_arg0) (V m c main_arg1) (((cfg0.win 2).blk t).view.emb (ix2 p u))
  refine (body_row (iblk m c 0 t) (iblk m c 1 t) (V m c main_arg0) (V m c main_arg1) p u
    ⟨256 * t.val + p.val, by omega⟩ ?_ ?_).trans ?_
  · intro k
    show V m c main_arg0 (((cfg0.win 0).blk t).view.emb (ix2 p k)) = V m c main_arg0 _
    refine congrArg (V m c main_arg0) (funext fun a => Fin.ext ?_)
    match a with
    | ⟨0, _⟩ => show win0_0.index t (0 : Fin 2) * 256 + 1 * p.val = 256 * t.val + p.val; omega
    | ⟨1, _⟩ => show win0_0.index t (1 : Fin 2) * 4096 + 1 * k.val = k.val; omega
  · intro k
    show V m c main_arg1 (((cfg0.win 1).blk t).view.emb (ix2 p k)) = V m c main_arg1 _
    refine congrArg (V m c main_arg1) (funext fun a => Fin.ext ?_)
    match a with
    | ⟨0, _⟩ => show win0_1.index t (0 : Fin 2) * 256 + 1 * p.val = 256 * t.val + p.val; omega
    | ⟨1, _⟩ => show win0_1.index t (1 : Fin 2) * 4096 + 1 * k.val = k.val; omega
  · unfold corrColumn
    refine congrArg (Cert.Pearson.rowCorr (V m c main_arg0) (V m c main_arg1)) (Fin.ext ?_)
    show 256 * t.val + p.val = win0_2.index t (0 : Fin 2) * 256 + 1 * p.val
    omega

/-- A row of the result is in point `t`'s block iff it is one of rows `256 · t` to `256 · t + 255`. -/
theorem mem_block (t : Fin cfg0.N) (i : S4096x1.Idx) :
    i ∈ ((cfg0.win 2).blk t).view.set
      ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- Every row of the result is written by some point: row `r` by point `r / 256`. -/
theorem covered (i : S4096x1.Idx) :
    ∃ t : Fin cfg0.N, (cfg0.win 2).flush t = true ∧ i ∈ ((cfg0.win 2).blk t).view.set := by
  have h0 : (i 0).val < 4096 := idx2_lt0 i
  have h1 : (i 1).val < 1 := idx2_lt1 i
  have hN : cfg0.N = 16 := N_0
  obtain ⟨t, ht⟩ : ∃ t : Fin cfg0.N, t.val = (i 0).val / 256 := ⟨⟨(i 0).val / 256, by rw [hN]; omega⟩, rfl⟩
  obtain ⟨-, -, -, -, e20, e21⟩ := index_facts t
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 1 ≤ (i 1).val ∧ (i 1).val < win0_2.index t (1 : Fin 2) * 1 + 1
    omega

/-- The result array after the run: the column of correlations of the arguments as the region finds them. -/
theorem final (c : Dev nD) :
    (dats m 0 c).arrAt 2 cfg0.N = corrColumn (V m c main_arg0) (V m c main_arg1) :=
  (dats m 0 c).arrAt_eq_of_cover 2 (corrColumn (V m c main_arg0) (V m c main_arg1))
    (fun t _ => flushed_eq m c t) (fun i => covered i)

end Cert.KernelIdeal.Body

end
-- ==== Proof.LibSumForms.lean ====
/-
  Sums over a vector's or a column's indices as sums over the coordinate.

  An index of a vector `[n]` is its one coordinate, and an index of a column `[n, 1]` is its first coordinate (the
  second can only be `0`). So a sum over all indices of either is a sum over `Fin n`, with the index written by its
  coordinates.
-/
import Idealize.ShloMosaic.Lib.ValueIdx

namespace Cert.SumForms

open Idealize.ShloMosaic Idealize.ShloMosaic.ValueIdx

/-- The indices of a vector `[n]` are its coordinates. -/
def idxEquiv1 {n : ℕ} : (⟨1, ![n]⟩ : Shape).Idx ≃ Fin n where
  toFun j := j 0
  invFun a := ix1 a
  left_inv j := (eq_ix1 j).symm
  right_inv _ := rfl

/-- A sum over the indices of a vector `[n]` is the sum over its coordinate. -/
theorem sum_idx1 {M : Type*} [AddCommMonoid M] {n : ℕ} (f : (⟨1, ![n]⟩ : Shape).Idx → M) :
    ∑ j, f j = ∑ a : Fin n, f (ix1 a) :=
  (Equiv.sum_comp (idxEquiv1 (n := n)).symm f).symm

/-- A sum over the indices of a column `[n, 1]` is the sum over its first coordinate, the second being `0`. -/
theorem sum_column {M : Type*} [AddCommMonoid M] {n : ℕ} (f : (⟨2, ![n, 1]⟩ : Shape).Idx → M) :
    ∑ j, f j = ∑ a : Fin n, f (ix2 a (0 : Fin 1)) := by
  rw [sum_idx2]
  exact Finset.sum_congr rfl fun a _ => Fin.sum_univ_one _

end Cert.SumForms
-- ==== Proof.KernelResult.lean ====
/-
  The kernel program's result is the loss.

  After the region the program sums the one-column result array over all its entries starting from the zero word,
  divides by the word of `4096.0`, and subtracts the quotient from the word of `1.0`. The array is the column of the
  rows' correlations (`final`), a sum over a column's indices is the sum over its rows, and the zero word is `0`:
  the program's result is `Pearson.loss` of the arguments. `run` is the generated frame run with its post read this way.
-/
import proofs.«117892_j6545530159352_2_alg».proof.Proof.BlockArray
import proofs.«117892_j6545530159352_2_alg».proof.Proof.LibSumForms
import Idealize.ShloMosaic.Lib.StableHlo.Run
import Idealize.ShloMosaic.PureOps.Ideal.Laws

noncomputable section

namespace Cert.KernelIdeal.Body

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- What the lines after the region read as the region's result: the column of correlations. -/
theorem region_result (c : Dev nD) :
    Pipeline.withArrays (cfgs 0).spec c (V0 m c) (fun w => (dats m 0 c).arrAt w (cfgs 0).N) (Proc.tc.devRef main_v0)
      = corrColumn (V m c main_arg0) (V m c main_arg1) :=
  (Pipeline.withArrays_arr spec0 launch0.win.arr_inj c _ _ 2).trans (final m c)

/-- The sum of the column from zero, over 4096, taken from one: the loss. -/
theorem tail_of_column (P : S4096x1.Idx → EReal) (X Y : Cert.Pearson.Mat)
    (hP : ∀ r : Fin 4096, P (ix2 r (0 : Fin 1)) = Cert.Pearson.rowCorr X Y r) (i : S_.Idx) :
    subf (constant (F := Ideal) S_ .f32 0x3F800000#32)
      (Host.divf (Host.reduceAdd P (constant (F := Ideal) S_ .f32 0x00000000#32) reducesTo_S4096x1_S_d0_1 h_S_)
        (constant (F := Ideal) S_ .f32 0x45800000#32)) i = Cert.Pearson.loss X Y := by
  simp only [subf_apply, Host.divf, Host.reduceAdd, Ideal.hostDivf_def, Ideal.hostReduceAdd_def, constant_apply]
  rw [Ideal.hostReduceAdd_total reducesTo_S4096x1_S_d0_1 (fun b => b.elim0), Cert.SumForms.sum_column]
  simp only [hP, Ideal.ofBits_zero_f32, zero_add]
  rfl

/-- The program's result after the lines that follow the region. -/
theorem tail_eq (c : Dev nD) :
    Pipeline.afterTail₀ cfgs (dats m) 0 (V0 m) [hostOps1] c main_v3
      = fun _ => Cert.Pearson.loss (V m c main_arg0) (V m c main_arg1) := by
  unfold Pipeline.afterTail₀
  show StableHlo.after hostOps1 _ (Proc.devRef .tc main_v3) = _
  after_results
  rw [region_result]
  funext i
  exact tail_of_column _ _ _ (fun r => corrColumn_apply _ _ r 0) i

/-- Every weakly fair execution of the idealized kernel program terminates with its result at the loss of its
    arguments and the arguments unchanged. -/
theorem run : θ_run defs (onTc (τ := τ) (main (F := Ideal))) ⟨m, fun _ => 0, ρ⟩ fun r => ∀ c : Dev nD,
      r.2.mem ((c.tc : Thread nD τ).loc main_v3)
        = (fun _ => Cert.Pearson.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Body

end
-- ==== Proof.RefRead.lean ====
/-
  The reference program's result is the loss.

  The reference sums each row of `X·Y`, `X`, `Y`, `X²`, `Y²` over all 4096 columns starting from the zero word, forms
  the correlation of each row from the five sums, sums the 4096 correlations starting from the zero word, divides by
  the word of `4096.0` and subtracts the quotient from the word of `1.0`. The zero word is the extended real `0`, so
  each "zero plus a sum" is the sum, and the result is `Pearson.loss`.
-/
import proofs.«117892_j6545530159352_2_alg».proof.Proof.Gen.ReferenceIdeal.Read
import proofs.«117892_j6545530159352_2_alg».proof.Proof.Pearson
import proofs.«117892_j6545530159352_2_alg».proof.Proof.LibSumForms
import Idealize.ShloMosaic.Lib.ValueIdx
import Idealize.ShloMosaic.PureOps.Ideal.Laws

noncomputable section

namespace Cert.ReferenceIdeal.RefValue

open Cert.ReferenceIdeal Cert.ReferenceIdeal.Read
open Idealize.ShloMosaic Idealize.ShloMosaic.ValueIdx Idealize.SL.Sem

/-- The index a row sum reads, for row `r` and column `k`, is `(r, k)`: one equation per row sum of the program. -/
theorem idx_v1 (r k : Fin 4096) : idx_main_v1 (ix1 r) k = ix2 r k :=
  funext fun a => Fin.ext (by match a with | ⟨0, _⟩ => rfl | ⟨1, _⟩ => rfl)
theorem idx_v2 (r k : Fin 4096) : idx_main_v2 (ix1 r) k = ix2 r k :=
  funext fun a => Fin.ext (by match a with | ⟨0, _⟩ => rfl | ⟨1, _⟩ => rfl)
theorem idx_v3 (r k : Fin 4096) : idx_main_v3 (ix1 r) k = ix2 r k :=
  funext fun a => Fin.ext (by match a with | ⟨0, _⟩ => rfl | ⟨1, _⟩ => rfl)
theorem idx_v5 (r k : Fin 4096) : idx_main_v5 (ix1 r) k = ix2 r k :=
  funext fun a => Fin.ext (by match a with | ⟨0, _⟩ => rfl | ⟨1, _⟩ => rfl)
theorem idx_v7 (r k : Fin 4096) : idx_main_v7 (ix1 r) k = ix2 r k :=
  funext fun a => Fin.ext (by match a with | ⟨0, _⟩ => rfl | ⟨1, _⟩ => rfl)

/-- Every operation of the reference read at its index, from the result inwards: the result is the loss of the
    two arguments. -/
theorem result_eq (X Y : S4096x4096.Idx → EReal) (i : S_.Idx) :
    val_main_v25 (F := Ideal) X Y i = Cert.Pearson.loss X Y := by
  rw [val_main_v25_apply, val_main_v24_apply, val_main_v23_apply, Cert.SumForms.sum_idx1]
  simp only [val_main_v22_apply, val_main_v21_apply, val_main_v20_apply, val_main_v19_apply, val_main_v18_apply,
    val_main_v17_apply, val_main_v16_apply, val_main_v15_apply, val_main_v14_apply, val_main_v13_apply,
    val_main_v12_apply, val_main_v11_apply, val_main_v10_apply, val_main_v9_apply, val_main_v8_apply,
    val_main_v7_apply, val_main_v6_apply, val_main_v5_apply, val_main_v4_apply, val_main_v3_apply,
    val_main_v2_apply, val_main_v1_apply, val_main_v0_apply,
    val_main_cst_apply, val_main_cst_0_apply, val_main_cst_1_apply, val_main_cst_2_apply, val_main_cst_3_apply,
    val_main_cst_4_apply, val_main_cst_5_apply, val_main_cst_6_apply, val_main_cst_7_apply, val_main_cst_8_apply,
    val_main_cst_9_apply,
    idx_v1, idx_v2, idx_v3, idx_v5, idx_v7,
    Ideal.ofBits_def, Ideal.subf_def, Ideal.mulf_def, Ideal.hostDivf_def, Ideal.hostUnary_sqrt_def,
    Ideal.ofBits_zero_f32, zero_add]
  rfl

end Cert.ReferenceIdeal.RefValue

end
-- ==== Proof.lean ====
/-
  The kernel program and the reference compute the same loss over the extended reals.

  Both take two 4096 × 4096 matrices. For each row they form the five moments (the sums of `x`, `y`, `x²`, `y²`, `x·y`
  over the row's 4096 columns), the row's correlation `(n · dot − sx · sy) / √((n · ssx − sx²) · (n · ssy − sy²))` with
  `n = 4096`, and then one minus the mean of the 4096 correlations (`Pearson.loss`, Proof/Pearson.lean).

  The reference sums each row in one go. The kernel handles 256 rows per grid point and sums each row in four chunks
  of 1024 columns, adding the chunk sums one after the other starting from zero; the mean and the final subtraction
  are done after the region, on the one-column array of correlations. The only difference between the two sides is the
  grouping of each row's sum, and addition of extended reals is commutative and associative whatever the entries are
  (`Pearson.chain_eq_sum`), so the results agree for all inputs; the finiteness of the inputs is not used. Square
  root and division are the same functions on both sides.

  The kernel's side: Proof/BlockBody.lean (what the body stores), Proof/BlockRow.lean (that column read at a row),
  Proof/BlockArray.lean (the sixteen blocks make the whole column), Proof/KernelResult.lean (the lines after the region).
  The reference's side: Proof/RefRead.lean. The idealized kernel is the kernel's own text read over the extended reals
  (no operation was rewritten), so there is nothing to preserve.
-/
import proofs.«117892_j6545530159352_2_alg».proof.Defs
import proofs.«117892_j6545530159352_2_alg».proof.Proof.Gen.Kernel
import proofs.«117892_j6545530159352_2_alg».proof.Proof.Gen.Kernel.Skeleton
import proofs.«117892_j6545530159352_2_alg».proof.Proof.Gen.Kernel.Launch
import proofs.«117892_j6545530159352_2_alg».proof.Proof.Gen.Kernel.Points
import proofs.«117892_j6545530159352_2_alg».proof.Proof.Gen.Kernel.Frame
import proofs.«117892_j6545530159352_2_alg».proof.Proof.Gen.KernelIdeal
import proofs.«117892_j6545530159352_2_alg».proof.Proof.Gen.KernelIdeal.Skeleton
import proofs.«117892_j6545530159352_2_alg».proof.Proof.Gen.KernelIdeal.Launch
import proofs.«117892_j6545530159352_2_alg».proof.Proof.Gen.KernelIdeal.Points
import proofs.«117892_j6545530159352_2_alg».proof.Proof.Gen.KernelIdeal.Frame
import proofs.«117892_j6545530159352_2_alg».proof.Proof.Gen.ReferenceIdeal
import proofs.«117892_j6545530159352_2_alg».proof.Proof.Gen.ReferenceIdeal.Run
import proofs.«117892_j6545530159352_2_alg».proof.Proof.Gen.ReferenceIdeal.Read
import proofs.«117892_j6545530159352_2_alg».proof.Proof.Gen.Pre_finite_inputs
import proofs.«117892_j6545530159352_2_alg».proof.Proof.KernelResult
import proofs.«117892_j6545530159352_2_alg».proof.Proof.RefRead
import Idealize.ShloMosaic.Adequacy
import Idealize.ShloMosaic.Init

noncomputable section

namespace Cert.Proof

open Idealize.ShloMosaic Idealize.ShloMosaic.TcCoe Idealize.SL.Sem

/-- The kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten. -/
theorem preserves : Cert.preserves_Kernel_KernelIdeal := trivial

/-- From memories that agree on the two arguments, both programs end with the loss of those arguments as their
    result: the kernel program by `Body.run`, the reference by its run read operation by operation (`result_eq`). -/
theorem algebraic : Cert.algebraic_KernelIdeal_ReferenceIdeal := by
  intro m ρ m' ρ' _ hagree
  refine ⟨fun c => fun _ => Cert.Pearson.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, (hagree c).1, (hagree c).2]
  funext i
  exact Cert.ReferenceIdeal.RefValue.result_eq _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
